-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_arg5 : FVec F S4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S1024x4096 .f32) (main_arg1 : FVec F S4096x4096 .f32) (main_arg2 : FVec F S4096 .f32) (main_arg3 : FVec F S4096x4096 .f32) (main_arg4 : FVec F S4096x4096 .f32) (main_arg5 : FVec F S4096 .f32) (main_arg6 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 17
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S1024x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  transposes_S1024x1024_p1_0_S1024x1024 : S1024x1024.Transposes [1, 0] S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x4096.size a
  hwx0_0 : ∀ i : grid0.Coords, EltTy.bits .f32 = 32 ∨ (Rect.block (s := S1024x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S4096.size a
  hwx0_5 : ∀ i : grid0.Coords, EltTy.bits .f32 = 32 ∨ (Rect.block (s := S4096) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S4096.size a
  hwx0_6 : ∀ i : grid0.Coords, EltTy.bits .f32 = 32 ∨ (Rect.block (s := S4096) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S1024x4096.size a
  hwx0_7 : ∀ i : grid0.Coords, EltTy.bits .f32 = 32 ∨ (Rect.block (s := S1024x4096) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S1024x4096, .f32⟩
  | .hbm, ⟨14, _⟩ => ⟨S1x4096, .f32⟩
  | .hbm, ⟨15, _⟩ => ⟨S1024x4096, .f32⟩
  | .hbm, ⟨16, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_1_0_0_n_n_wf : DotDims.WF S1024x4096 S4096x4096 S1024x4096 [1] [1] [0] [0] [] []

variable [Facts₀]

def dot_S1024x4096_S4096x4096_S1024x4096_1_1_0_0_n_n : DotDims S1024x4096 S4096x4096 S1024x4096 where
  lhsContracting := [1]
  rhsContracting := [1]
  lhsNonContracting := [0]
  rhsNonContracting := [0]
  lhsBatch := []
  rhsBatch := []
  wf := dot_S1024x4096_S4096x4096_S1024x4096_1_1_0_0_n_n_wf

class Facts : Prop extends Facts₀ where

variable [Facts]
-- ==== Proof.Spec.lean ====
/-
  The function both programs compute, entry by entry on the extended reals: a dense layer whose weights and
  bias are sampled by reparameterisation,
      out[b, o] = (∑ i, x[b, i] · (mu_w[o, i] + exp(ls_w[o, i]) · eps_w[o, i])) + (mu_b[o] + exp(ls_b[o]) · eps_b[o]).
  The contraction runs over all 4096 input features at once.
-/
import Idealize.ShloMosaic.PureOps.Ideal
import Idealize.ShloMosaic.Lib.ValueIdx

noncomputable section

namespace Cert.Spec

open Idealize.ShloMosaic Idealize.ShloMosaic.ValueIdx

/-- The shapes of the arguments: the batch of inputs (and the result), the weight-sized arrays, the bias-sized arrays. -/
abbrev SX : Shape := ⟨2, ![1024, 4096]⟩
abbrev SW : Shape := ⟨2, ![4096, 4096]⟩
abbrev SB : Shape := ⟨1, ![4096]⟩

/-- One entry of the sampled weight matrix: mean plus standard deviation times noise. -/
def wAt (mu ls eps : SW.Idx → EReal) (o i : Fin 4096) : EReal :=
  mu (ix2 o i) + Ideal.exp (ls (ix2 o i)) * eps (ix2 o i)

/-- One entry of the sampled bias. -/
def bAt (mu ls eps : SB.Idx → EReal) (o : Fin 4096) : EReal :=
  mu (ix1 o) + Ideal.exp (ls (ix1 o)) * eps (ix1 o)

/-- The result at row `b`, column `o`: the row of `x` against the sampled weight row `o`, plus the sampled bias. -/
def outAt (x : SX.Idx → EReal) (eps_w : SW.Idx → EReal) (eps_b : SB.Idx → EReal) (mu_w ls_w : SW.Idx → EReal)
    (mu_b ls_b : SB.Idx → EReal) (b : Fin 1024) (o : Fin 4096) : EReal :=
  (∑ i : Fin 4096, x (ix2 b i) * wAt mu_w ls_w eps_w o i) + bAt mu_b ls_b eps_b o

/-- The whole result array. -/
def out (x : SX.Idx → EReal) (eps_w : SW.Idx → EReal) (eps_b : SB.Idx → EReal) (mu_w ls_w : SW.Idx → EReal)
    (mu_b ls_b : SB.Idx → EReal) : SX.Idx → EReal :=
  fun j => outAt x eps_w eps_b mu_w ls_w mu_b ls_b (j 0) (j 1)

theorem out_ix2 (x : SX.Idx → EReal) (eps_w : SW.Idx → EReal) (eps_b : SB.Idx → EReal) (mu_w ls_w : SW.Idx → EReal)
    (mu_b ls_b : SB.Idx → EReal) (b : Fin 1024) (o : Fin 4096) :
    out x eps_w eps_b mu_w ls_w mu_b ls_b (ix2 b o) = outAt x eps_w eps_b mu_w ls_w mu_b ls_b b o := rfl

end Cert.Spec

end
-- ==== Proof.RefIsSpec.lean ====
/-
  The reference, read one operation at a time, is the dense layer of the specification: its contraction is one sum
  over all 4096 input features of the input row against the sampled weight row, and the sampled bias is spread over
  the rows by two broadcasts.
-/
import proofs.«165912_j89799176225396_1_alg».proof.Proof.Gen.ReferenceIdeal.Read
import proofs.«165912_j89799176225396_1_alg».proof.Proof.Spec

noncomputable section

namespace Cert.ReferenceIdeal.RefValue

open Cert.ReferenceIdeal Cert.ReferenceIdeal.Read Idealize.ShloMosaic Idealize.ShloMosaic.ValueIdx

/-- The reference's result array is the specification's, as a function of the seven arguments. -/
theorem result_eq (x0 : (⟨S1024x4096, .f32⟩ : BufTy).Contents (Elt Ideal)) (x1 : (⟨S4096x4096, .f32⟩ : BufTy).Contents (Elt Ideal))
    (x2 : (⟨S4096, .f32⟩ : BufTy).Contents (Elt Ideal)) (x3 x4 : (⟨S4096x4096, .f32⟩ : BufTy).Contents (Elt Ideal))
    (x5 x6 : (⟨S4096, .f32⟩ : BufTy).Contents (Elt Ideal)) :
    val_main_v9 (F := Ideal) x0 x1 x2 x3 x4 x5 x6 = Cert.Spec.out x0 x1 x2 x3 x4 x5 x6 := by
  funext j
  obtain ⟨b, o, rfl⟩ : ∃ (b : Fin 1024) (o : Fin 4096), j = ix2 b o := ⟨j 0, j 1, eq_ix2 j⟩
  have el : ∀ k : Fin 4096, lidx_main_v6 (ix2 b o) k = ix2 b k := fun k =>
    funext fun a => Fin.ext (by match a with | ⟨0, _⟩ => rfl | ⟨1, _⟩ => rfl)
  have er : ∀ k : Fin 4096, ridx_main_v6 (ix2 b o) k = ix2 o k := fun k =>
    funext fun a => Fin.ext (by match a with | ⟨0, _⟩ => rfl | ⟨1, _⟩ => rfl)
  have eb : idx_main_v7 (idx_main_v8 (ix2 b o)) = ix1 o :=
    funext fun a => Fin.ext (by match a with | ⟨0, _⟩ => rfl)
  rw [Cert.Spec.out_ix2, val_main_v9_apply, val_main_v6_apply, val_main_v8_apply, val_main_v7_apply, val_main_v5_apply,
    val_main_v4_apply, val_main_v3_apply]
  simp only [val_main_v2_apply, val_main_v1_apply, val_main_v0_apply, el, er, eb, Ideal.addf_def, Ideal.mulf_def,
    Ideal.hostUnary_exp_def]
  rfl

end Cert.ReferenceIdeal.RefValue

end
-- ==== Proof.Pieces.lean ====
/-
  What each control case of the kernel body leaves, as the body's own arithmetic.  The body keeps a running
  [256, 1024] accumulator in a scratch buffer.  At the first step along the contraction axis it zeroes the
  accumulator and then adds that step's partial product; at a middle step it adds the partial product to what the
  step before left; at the last step it also writes the accumulator plus the bias row to the output block.
  The statements hold for every reading of the float operations.
-/
import proofs.«165912_j89799176225396_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem z256 : (![0, 0] : Fin S256x1024.rank → Nat) = fun _ => 0 := funext fun a => by fin_cases a <;> rfl
theorem z1024 : (![0, 0] : Fin S1024x1024.rank → Nat) = fun _ => 0 := funext fun a => by fin_cases a <;> rfl
theorem z1 : (![0] : Fin S1024.rank → Nat) = fun _ => 0 := funext fun a => by fin_cases a <;> rfl

/-- A middle step leaves in the accumulator the step's partial product added to what the step before left. -/
theorem acc_middle (c : Dev nD) (i : grid0.Coords) (arg3 : Memref sig .tc .vmem S256x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole) (hc0 : ¬cond0_0 i) (hc1 : ¬cond0_1 i) (x0 : Vec F S256x1024 .f32) (x1 : Vec F S1024x1024 .f32) (x2 : Vec F S1024x1024 .f32) (x3 : Vec F S1024x1024 .f32) (x4 : Vec F S1024 .f32) (x5 : Vec F S1024 .f32) (x6 : Vec F S1024 .f32) (xs0 : Vec F S256x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay2 x1 x2 x3 x0 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B; dsimp only; sl_unfold_words
  rw [View.canon_unit_zero z256]
  simp only [View.readAt_eq_ld, harg3.read_unread, harg4.read_unread, harg5.read_unread, harg6.read_unread, harg11.read_unread,
    View.ld_unit_zero (S := S1024x1024) z1024, View.ld_unit_zero (S := S256x1024) z256]

/-- The last step leaves the same in the accumulator … -/
theorem acc_last (c : Dev nD) (i : grid0.Coords) (arg3 : Memref sig .tc .vmem S256x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole) (hc0 : ¬cond0_0 i) (hc1 : cond0_1 i) (x0 : Vec F S256x1024 .f32) (x1 : Vec F S1024x1024 .f32) (x2 : Vec F S1024x1024 .f32) (x3 : Vec F S1024x1024 .f32) (x4 : Vec F S1024 .f32) (x5 : Vec F S1024 .f32) (x6 : Vec F S1024 .f32) (xs0 : Vec F S256x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay2 x1 x2 x3 x0 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C; dsimp only; sl_unfold_words
  rw [View.canon_unit_zero z256]
  simp only [View.readAt_eq_ld, harg3.read_unread, harg4.read_unread, harg5.read_unread, harg6.read_unread, harg11.read_unread,
    View.ld_unit_zero (S := S1024x1024) z1024, View.ld_unit_zero (S := S256x1024) z256]

/-- … and writes to the output block the accumulator plus the bias row. -/
theorem out_last (c : Dev nD) (i : grid0.Coords) (arg3 : Memref sig .tc .vmem S256x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole) (hc0 : ¬cond0_0 i) (hc1 : cond0_1 i) (x0 : Vec F S256x1024 .f32) (x1 : Vec F S1024x1024 .f32) (x2 : Vec F S1024x1024 .f32) (x3 : Vec F S1024x1024 .f32) (x4 : Vec F S1024 .f32) (x5 : Vec F S1024 .f32) (x6 : Vec F S1024 .f32) (xs0 : Vec F S256x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay3 x4 x5 x6 (k0_pay2 x1 x2 x3 x0 xs0) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C; dsimp only; sl_unfold_words
  rw [View.canon_unit_zero z256]
  simp only [View.readAt_eq_ld, harg3.read_unread, harg4.read_unread, harg5.read_unread,
    harg6.read_unread, harg7.read_unread, harg8.read_unread, harg9.read_unread, harg11.read_unread,
    View.ld_unit_zero (S := S1024x1024) z1024, View.ld_unit_zero (S := S256x1024) z256, View.ld_unit_zero (S := S1024) z1]
  exact congrArg (k0_pay3 x4 x5 x6) (View.readCov_unit_zero (S := S256x1024) arg11.view z256 _ _)

/-- The first step zeroes the accumulator and then adds its partial product: what it leaves is the partial product
    added to the zero block. -/
theorem acc_first (c : Dev nD) (i : grid0.Coords) (arg3 : Memref sig .tc .vmem S256x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole) (hc0 : cond0_0 i) (hc1 : ¬cond0_1 i) (x0 : Vec F S256x1024 .f32) (x1 : Vec F S1024x1024 .f32) (x2 : Vec F S1024x1024 .f32) (x3 : Vec F S1024x1024 .f32) (x4 : Vec F S1024 .f32) (x5 : Vec F S1024 .f32) (x6 : Vec F S1024 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay2 x1 x2 x3 x0 k0_pay1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A; dsimp only; sl_unfold_words
  rw [View.canon_cons_unit_zero z256]
  simp only [View.readAt_eq_ld, harg3.read_unread, harg4.read_unread, harg5.read_unread,
    harg6.read_unread, View.ld_unit_zero (S := S1024x1024) z1024, View.ld_unit_zero (S := S256x1024) z256]
  exact congrArg (k0_pay2 x1 x2 x3 x0) (View.readCov_unit_zero (S := S256x1024) arg11.view z256 _ _)

end Cert.KernelIdeal.Pieces

end
-- ==== Proof.ScratchStep.lean ====
/-
  The accumulator after each grid point, and what the last point of a run writes back, in the body's own arithmetic
  applied to the point's blocks.  A run is four consecutive points sharing the output block: the first zeroes the
  accumulator and adds its partial product, each later one adds its own to what the point before left, and the last
  also stores the accumulator plus the bias row.  The statements hold for every reading of the float operations.
-/
import proofs.«165912_j89799176225396_1_alg».proof.Proof.Gen.KernelIdeal.Value
import proofs.«165912_j89799176225396_1_alg».proof.Proof.Pieces

noncomputable section

namespace Cert.KernelIdeal.ScratchStep

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- At the first point of a run the accumulator is left at the point's partial product added to the zero block,
    whatever it held before. -/
theorem sc_first (c : Dev nD) (n : ℕ) (hb : n < cfg0.N) (h0 : n % 4 = 0) (acc : Vec F S256x1024 .f32) :
    Value.scAt0_0 m c n hb acc = k0_pay2 (iblk m c 1 (⟨n, hb⟩ : Fin cfg0.N)) (iblk m c 2 (⟨n, hb⟩ : Fin cfg0.N)) (iblk m c 3 (⟨n, hb⟩ : Fin cfg0.N)) (iblk m c 0 (⟨n, hb⟩ : Fin cfg0.N)) k0_pay1 := by
  have h1 : ¬ n % 4 = 3 := by omega
  unfold Value.scAt0_0
  rw [dif_pos h0, dif_neg h1]
  exact Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- At every later point of a run it is left at the point's partial product added to what the point before left. -/
theorem sc_next (c : Dev nD) (n : ℕ) (hb : n < cfg0.N) (h0 : ¬ n % 4 = 0) (acc : Vec F S256x1024 .f32) :
    Value.scAt0_0 m c n hb acc = k0_pay2 (iblk m c 1 (⟨n, hb⟩ : Fin cfg0.N)) (iblk m c 2 (⟨n, hb⟩ : Fin cfg0.N)) (iblk m c 3 (⟨n, hb⟩ : Fin cfg0.N)) (iblk m c 0 (⟨n, hb⟩ : Fin cfg0.N)) acc := by
  unfold Value.scAt0_0
  rw [dif_neg h0]
  by_cases h1 : n % 4 = 3
  · rw [dif_pos h1]
    exact Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
  · rw [dif_neg h1]
    exact Pieces.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- What the last point of a run leaves in the accumulator, over what the point before left. -/
theorem acc_at_last (c : Dev nD) (t : Fin cfg0.N) (h0 : ¬ t.val % 4 = 0) (h1 : t.val % 4 = 3) :
    (outsAt0 m c t.val t.isLt).2 = k0_pay2 (iblk m c 1 t) (iblk m c 2 t) (iblk m c 3 t) (iblk m c 0 t) ((outsAt0 m c (t.val - 1) (Nat.lt_of_le_of_lt (Nat.sub_le _ _) t.isLt)).2) := by
  rw [outsAt0_C m c t h0 h1]
  dsimp only
  exact Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2)

/-- The last point of a run writes back the accumulator it leaves plus the bias row. -/
theorem flushed_last (c : Dev nD) (t : Fin cfg0.N) (h1 : t.val % 4 = 3) :
    (dats m 0 c).flushed 7 t
      = (cfg0.win 7).cut (grid0.coords t)
          (k0_pay3 (iblk m c 4 t) (iblk m c 5 t) (iblk m c 6 t) ((outsAt0 m c t.val t.isLt).2)) := by
  have h0 : ¬ t.val % 4 = 0 := by omega
  rw [Value.flushed7_C m c t h0 h1, acc_at_last m c t h0 h1]
  exact congrArg ((cfg0.win 7).cut (grid0.coords t))
    (Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2))

end Cert.KernelIdeal.ScratchStep

end
-- ==== Proof.PayloadAt.lean ====
/-
  The body's two stored values read at one entry, on the extended reals.
  The accumulate step: entry (p, q) of the new accumulator is the old entry plus the contraction, over the 1024
  features of the step, of the input row p against row q of the sampled weight block (mean plus exp(log-sigma)
  times noise); rounding the operands to bfloat16 on the way into the matrix unit changes nothing here.
  The final step: entry (p, q) of the output block is the accumulator entry plus entry q of the sampled bias.
-/
import proofs.«165912_j89799176225396_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-- The matrix unit's operand indices at output entry `j` and contraction position `k`: the left operand is read at
    (row of `j`, `k`), the right operand at (`k`, column of `j`). -/
theorem lhs0 (j : S256x1024.Idx) (k : dot_S256x1024_S1024x1024_S256x1024_1_0_0_1_n_n.contr.Idx) :
    (dot_S256x1024_S1024x1024_S256x1024_1_0_0_1_n_n.lhsIdx j k 0).val = (j 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem lhs1 (j : S256x1024.Idx) (k : dot_S256x1024_S1024x1024_S256x1024_1_0_0_1_n_n.contr.Idx) :
    (dot_S256x1024_S1024x1024_S256x1024_1_0_0_1_n_n.lhsIdx j k 1).val = (k ⟨0, by decide⟩).val :=
  dot_S256x1024_S1024x1024_S256x1024_1_0_0_1_n_n.lhsIdx_val_of_single rfl j k
theorem rhs0 (j : S256x1024.Idx) (k : dot_S256x1024_S1024x1024_S256x1024_1_0_0_1_n_n.contr.Idx) :
    (dot_S256x1024_S1024x1024_S256x1024_1_0_0_1_n_n.rhsIdx j k 0).val = (k ⟨0, by decide⟩).val :=
  dot_S256x1024_S1024x1024_S256x1024_1_0_0_1_n_n.rhsIdx_val_of_single rfl j k
theorem rhs1 (j : S256x1024.Idx) (k : dot_S256x1024_S1024x1024_S256x1024_1_0_0_1_n_n.contr.Idx) :
    (dot_S256x1024_S1024x1024_S256x1024_1_0_0_1_n_n.rhsIdx j k 1).val = (j 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The accumulate step at entry (p, q). -/
theorem pay2_at (v3 v4 v6 : Vec Ideal S1024x1024 .f32) (v9 v12 : Vec Ideal S256x1024 .f32) (p : Fin 256) (q : Fin 1024) :
    k0_pay2 (F := Ideal) v3 v4 v6 v9 v12 (ix2 p q)
      = v12 (ix2 p q) + ∑ l : Fin 1024, v9 (ix2 p l) * (v3 (ix2 q l) + Ideal.exp (v4 (ix2 q l)) * v6 (ix2 q l)) := by
  unfold k0_pay2
  refine (congrFun (shapeCast_self _ _) _).trans ?_
  refine congrArg (v12 (ix2 p q) + ·) ?_
  refine (Ideal.matmul_constant_zero_apply dot_S256x1024_S1024x1024_S256x1024_1_0_0_1_n_n none _ _ (ix2 p q)).trans ?_
  rw [← Equiv.sum_comp (contrEquiv1 dot_S256x1024_S1024x1024_S256x1024_1_0_0_1_n_n 1024 rfl rfl).symm]
  refine Finset.sum_congr rfl fun l _ => ?_
  have hk := contrEquiv1_symm_val dot_S256x1024_S1024x1024_S256x1024_1_0_0_1_n_n 1024 rfl rfl l
  have el : dot_S256x1024_S1024x1024_S256x1024_1_0_0_1_n_n.lhsIdx (ix2 p q) ((contrEquiv1 dot_S256x1024_S1024x1024_S256x1024_1_0_0_1_n_n 1024 rfl rfl).symm l) = ix2 p l :=
    funext fun a => Fin.ext (by
      match a with
      | ⟨0, _⟩ => exact lhs0 _ _
      | ⟨1, _⟩ => exact (lhs1 _ _).trans hk)
  have er : dot_S256x1024_S1024x1024_S256x1024_1_0_0_1_n_n.rhsIdx (ix2 p q) ((contrEquiv1 dot_S256x1024_S1024x1024_S256x1024_1_0_0_1_n_n 1024 rfl rfl).symm l) = ix2 l q :=
    funext fun a => Fin.ext (by
      match a with
      | ⟨0, _⟩ => exact (rhs0 _ _).trans hk
      | ⟨1, _⟩ => exact rhs1 _ _)
  rw [el, er]
  exact congrArg (v9 (ix2 p l) * ·) ((transpose_ix2_apply _ _ l q).trans rfl)

/-- The final step at entry (p, q). -/
theorem pay3_at (v22 v23 v25 : Vec Ideal S1024 .f32) (v28 : Vec Ideal S256x1024 .f32) (p : Fin 256) (q : Fin 1024) :
    k0_pay3 (F := Ideal) v22 v23 v25 v28 (ix2 p q)
      = v28 (ix2 p q) + (v22 (ix1 q) + Ideal.exp (v23 (ix1 q)) * v25 (ix1 q)) := by
  unfold k0_pay3
  refine congrArg (v28 (ix2 p q) + ·) ?_
  refine (broadcastTo_1b_ab_apply _ _ p q).trans ?_
  refine (shapeCast_a_1a_apply _ _ 0 q).trans ?_
  rfl

/-- The block the first step zeroes the accumulator with reads zero everywhere. -/
theorem pay1_at (p : Fin 256) (q : Fin 1024) : k0_pay1 (F := Ideal) (ix2 p q) = 0 := by
  unfold k0_pay1
  refine (congrFun (shapeCast_self _ _) _).trans ?_
  exact Ideal.ofBits_zero_f32

end Cert.KernelIdeal.PayloadAt

end
-- ==== Proof.Blocks.lean ====
/-
  Where each window's block sits in its array.  The grid has 4 × 4 × 4 points, numbered t = 16·i + 4·j + k: i picks
  256 rows of the input, j picks 1024 output features, k picks 1024 of the 4096 contracted features.  The input block
  at t is rows 256·i … of x and columns 1024·k …; the three weight-sized blocks are rows 1024·j … and columns
  1024·k …; the three bias-sized blocks are entries 1024·j …; the output block is rows 256·i … and columns 1024·j ….
-/
import proofs.«165912_j89799176225396_1_alg».proof.Proof.Gen.KernelIdeal.Frame.Runs
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps in closed form, decided over the 64 grid points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = t.val % 4
    ∧ win0_3.index t (0 : Fin 2) = t.val / 4 % 4 ∧ win0_3.index t (1 : Fin 2) = t.val % 4
    ∧ win0_4.index t (0 : Fin 1) = t.val / 4 % 4
    ∧ win0_5.index t (0 : Fin 1) = t.val / 4 % 4
    ∧ win0_6.index t (0 : Fin 1) = t.val / 4 % 4
    ∧ win0_7.index t (0 : Fin 2) = t.val / 16 ∧ win0_7.index t (1 : Fin 2) = t.val / 4 % 4 :=
  (by decide +kernel : ∀ t : Fin grid0.N, _)

/-- The input block at point `t`, entry (p, l), is `x` at row `256·(t/16) + p`, column `1024·(t%4) + l`. -/
theorem iblk0_at (c : Dev nD) (t : Fin cfg0.N) (p : Fin 256) (l : Fin 1024) (i : S1024x4096.Idx)
    (h0 : (i 0).val = 256 * (t.val / 16) + p.val) (h1 : (i 1).val = 1024 * (t.val % 4) + l.val) :
    (iblk m c 0 t : Vec F S256x1024 .f32) (ix2 p l) = m ((c : Thread nD τ).loc main_arg0) i := by
  obtain ⟨e00, e01, e10, e11, e20, e21, e30, e31, e4, e5, e6, e70, e71⟩ := idx_facts t
  unfold iblk
  rw [View.read_apply]
  show V m c main_arg0 _ = _
  unfold V
  refine congrArg _ (funext fun a => Fin.ext ?_)
  match a with
  | ⟨0, _⟩ => show win0_0.index t (0 : Fin 2) * 256 + 1 * p.val = (i 0).val; omega
  | ⟨1, _⟩ => show win0_0.index t (1 : Fin 2) * 1024 + 1 * l.val = (i 1).val; omega

/-- The weight-mean block at point `t`, entry (p, l), is `mu_w` at row `1024·(t/4%4) + p`, column `1024·(t%4) + l`. -/
theorem iblk1_at (c : Dev nD) (t : Fin cfg0.N) (p : Fin 1024) (l : Fin 1024) (i : S4096x4096.Idx)
    (h0 : (i 0).val = 1024 * (t.val / 4 % 4) + p.val) (h1 : (i 1).val = 1024 * (t.val % 4) + l.val) :
    (iblk m c 1 t : Vec F S1024x1024 .f32) (ix2 p l) = m ((c : Thread nD τ).loc main_arg3) i := by
  obtain ⟨e00, e01, e10, e11, e20, e21, e30, e31, e4, e5, e6, e70, e71⟩ := idx_facts t
  unfold iblk
  rw [View.read_apply]
  show V m c main_arg3 _ = _
  unfold V
  refine congrArg _ (funext fun a => Fin.ext ?_)
  match a with
  | ⟨0, _⟩ => show win0_1.index t (0 : Fin 2) * 1024 + 1 * p.val = (i 0).val; omega
  | ⟨1, _⟩ => show win0_1.index t (1 : Fin 2) * 1024 + 1 * l.val = (i 1).val; omega

/-- The weight log-deviation block likewise. -/
theorem iblk2_at (c : Dev nD) (t : Fin cfg0.N) (p : Fin 1024) (l : Fin 1024) (i : S4096x4096.Idx)
    (h0 : (i 0).val = 1024 * (t.val / 4 % 4) + p.val) (h1 : (i 1).val = 1024 * (t.val % 4) + l.val) :
    (iblk m c 2 t : Vec F S1024x1024 .f32) (ix2 p l) = m ((c : Thread nD τ).loc main_arg4) i := by
  obtain ⟨e00, e01, e10, e11, e20, e21, e30, e31, e4, e5, e6, e70, e71⟩ := idx_facts t
  unfold iblk
  rw [View.read_apply]
  show V m c main_arg4 _ = _
  unfold V
  refine congrArg _ (funext fun a => Fin.ext ?_)
  match a with
  | ⟨0, _⟩ => show win0_2.index t (0 : Fin 2) * 1024 + 1 * p.val = (i 0).val; omega
  | ⟨1, _⟩ => show win0_2.index t (1 : Fin 2) * 1024 + 1 * l.val = (i 1).val; omega

/-- The weight noise block likewise. -/
theorem iblk3_at (c : Dev nD) (t : Fin cfg0.N) (p : Fin 1024) (l : Fin 1024) (i : S4096x4096.Idx)
    (h0 : (i 0).val = 1024 * (t.val / 4 % 4) + p.val) (h1 : (i 1).val = 1024 * (t.val % 4) + l.val) :
    (iblk m c 3 t : Vec F S1024x1024 .f32) (ix2 p l) = m ((c : Thread nD τ).loc main_arg1) i := by
  obtain ⟨e00, e01, e10, e11, e20, e21, e30, e31, e4, e5, e6, e70, e71⟩ := idx_facts t
  unfold iblk
  rw [View.read_apply]
  show V m c main_arg1 _ = _
  unfold V
  refine congrArg _ (funext fun a => Fin.ext ?_)
  match a with
  | ⟨0, _⟩ => show win0_3.index t (0 : Fin 2) * 1024 + 1 * p.val = (i 0).val; omega
  | ⟨1, _⟩ => show win0_3.index t (1 : Fin 2) * 1024 + 1 * l.val = (i 1).val; omega

/-- The bias-mean block at point `t`, entry q, is `mu_b` at `1024·(t/4%4) + q`. -/
theorem iblk4_at (c : Dev nD) (t : Fin cfg0.N) (q : Fin 1024) (i : S4096.Idx)
    (h0 : (i 0).val = 1024 * (t.val / 4 % 4) + q.val) :
    (iblk m c 4 t : Vec F S1024 .f32) (ix1 q) = m ((c : Thread nD τ).loc main_arg5) i := by
  obtain ⟨e00, e01, e10, e11, e20, e21, e30, e31, e4, e5, e6, e70, e71⟩ := idx_facts t
  unfold iblk
  rw [View.read_apply]
  show V m c main_arg5 _ = _
  unfold V
  refine congrArg _ (funext fun a => Fin.ext ?_)
  match a with
  | ⟨0, _⟩ => show win0_4.index t (0 : Fin 1) * 1024 + 1 * q.val = (i 0).val; omega

/-- The bias log-deviation block likewise. -/
theorem iblk5_at (c : Dev nD) (t : Fin cfg0.N) (q : Fin 1024) (i : S4096.Idx)
    (h0 : (i 0).val = 1024 * (t.val / 4 % 4) + q.val) :
    (iblk m c 5 t : Vec F S1024 .f32) (ix1 q) = m ((c : Thread nD τ).loc main_arg6) i := by
  obtain ⟨e00, e01, e10, e11, e20, e21, e30, e31, e4, e5, e6, e70, e71⟩ := idx_facts t
  unfold iblk
  rw [View.read_apply]
  show V m c main_arg6 _ = _
  unfold V
  refine congrArg _ (funext fun a => Fin.ext ?_)
  match a with
  | ⟨0, _⟩ => show win0_5.index t (0 : Fin 1) * 1024 + 1 * q.val = (i 0).val; omega

/-- The bias noise block likewise. -/
theorem iblk6_at (c : Dev nD) (t : Fin cfg0.N) (q : Fin 1024) (i : S4096.Idx)
    (h0 : (i 0).val = 1024 * (t.val / 4 % 4) + q.val) :
    (iblk m c 6 t : Vec F S1024 .f32) (ix1 q) = m ((c : Thread nD τ).loc main_arg2) i := by
  obtain ⟨e00, e01, e10, e11, e20, e21, e30, e31, e4, e5, e6, e70, e71⟩ := idx_facts t
  unfold iblk
  rw [View.read_apply]
  show V m c main_arg2 _ = _
  unfold V
  refine congrArg _ (funext fun a => Fin.ext ?_)
  match a with
  | ⟨0, _⟩ => show win0_6.index t (0 : Fin 1) * 1024 + 1 * q.val = (i 0).val; omega

end Cert.KernelIdeal.Blocks

end
-- ==== Proof.LibBlockSum.lean ====
/-
  A sum over 4096 positions taken in four consecutive stretches of 1024: the law that joins a contraction
  accumulated stretch by stretch with the contraction taken whole.  Only commutativity and associativity of
  the sum are used, so it holds in any additive commutative monoid — the extended reals included, with no
  finiteness hypothesis.
-/
import Mathlib.Algebra.BigOperators.Fin
import Mathlib.Algebra.BigOperators.Intervals

namespace Cert.BlockSum

variable {M : Type*} [AddCommMonoid M]

/-- A sum over the first `c * n` naturals is the sum, over the `c` stretches of length `n`, of each stretch's sum. -/
theorem sum_range_blocks (g : ℕ → M) (n : ℕ) :
    ∀ c : ℕ, ∑ k ∈ Finset.range (c * n), g k = ∑ s ∈ Finset.range c, ∑ l ∈ Finset.range n, g (n * s + l)
  | 0 => by simp
  | c + 1 => by
    rw [Nat.succ_mul, Finset.sum_range_add, sum_range_blocks g n c, Finset.sum_range_succ, Nat.mul_comm n c]

/-- The same with both index sets spelt as `Fin`: 4096 positions as four stretches of 1024. -/
theorem sum_fin_4096 (g : ℕ → M) :
    ∑ k : Fin 4096, g k.val = ∑ s ∈ Finset.range 4, ∑ l : Fin 1024, g (1024 * s + l.val) := by
  rw [Fin.sum_univ_eq_sum_range g 4096, show (4096 : ℕ) = 4 * 1024 from rfl, sum_range_blocks g 1024 4]
  refine Finset.sum_congr rfl fun s _ => ?_
  exact (Fin.sum_univ_eq_sum_range (fun l => g (1024 * s + l)) 1024).symm

end Cert.BlockSum
-- ==== Proof.SpecBlocks.lean ====
/-
  The specification's contraction, taken in four stretches of 1024 features.  To speak of "row 256·i + p" or
  "feature 1024·k + l" without carrying a bound proof at every use, the arrays are read at natural-number coordinates,
  with the value zero outside the array (never consulted: every coordinate used below is in range).
-/
import proofs.«165912_j89799176225396_1_alg».proof.Proof.Spec
import proofs.«165912_j89799176225396_1_alg».proof.Proof.LibBlockSum

noncomputable section

namespace Cert.Spec

open Idealize.ShloMosaic Idealize.ShloMosaic.ValueIdx

/-- The input at natural-number coordinates. -/
def xN (x : SX.Idx → EReal) (r k : ℕ) : EReal :=
  if h : r < 1024 ∧ k < 4096 then x (ix2 ⟨r, h.1⟩ ⟨k, h.2⟩) else 0

/-- The sampled weight at natural-number coordinates. -/
def wN (mu ls eps : SW.Idx → EReal) (o k : ℕ) : EReal :=
  if h : o < 4096 ∧ k < 4096 then wAt mu ls eps ⟨o, h.1⟩ ⟨k, h.2⟩ else 0

/-- The sampled bias at a natural-number coordinate. -/
def bN (mu ls eps : SB.Idx → EReal) (o : ℕ) : EReal :=
  if h : o < 4096 then bAt mu ls eps ⟨o, h⟩ else 0

/-- One stretch of the contraction: input row `r` against sampled weight row `o` over the 1024 features from `k0`. -/
def partAt (x : SX.Idx → EReal) (mu ls eps : SW.Idx → EReal) (r o k0 : ℕ) : EReal :=
  ∑ l : Fin 1024, xN x r (k0 + l.val) * wN mu ls eps o (k0 + l.val)

/-- The result entry as four stretches plus the bias: the whole contraction is the sum of its four stretches, by
    associativity and commutativity of the sum alone. -/
theorem outAt_blocks (x : SX.Idx → EReal) (eps_w : SW.Idx → EReal) (eps_b : SB.Idx → EReal) (mu_w ls_w : SW.Idx → EReal)
    (mu_b ls_b : SB.Idx → EReal) (b : Fin 1024) (o : Fin 4096) :
    outAt x eps_w eps_b mu_w ls_w mu_b ls_b b o
      = (∑ s ∈ Finset.range 4, partAt x mu_w ls_w eps_w b.val o.val (1024 * s)) + bN mu_b ls_b eps_b o.val := by
  unfold outAt
  have hb : bN mu_b ls_b eps_b o.val = bAt mu_b ls_b eps_b o := by
    unfold bN; rw [dif_pos o.isLt]
  have hs : ∀ k : Fin 4096, x (ix2 b k) * wAt mu_w ls_w eps_w o k
      = (fun n : ℕ => xN x b.val n * wN mu_w ls_w eps_w o.val n) k.val := fun k => by
    show _ = xN x b.val k.val * wN mu_w ls_w eps_w o.val k.val
    unfold xN wN
    rw [dif_pos ⟨b.isLt, k.isLt⟩, dif_pos ⟨o.isLt, k.isLt⟩]
  rw [hb, Finset.sum_congr rfl (fun k _ => hs k),
    Cert.BlockSum.sum_fin_4096 (fun n : ℕ => xN x b.val n * wN mu_w ls_w eps_w o.val n)]
  rfl

end Cert.Spec

end
-- ==== Proof.Accumulate.lean ====
/-
  The kernel's accumulation, on the extended reals.  At each grid point the accumulate step adds to entry (p, q) of the
  accumulator one stretch of the contraction: input row 256·i + p against sampled weight row 1024·j + q over the 1024
  features from 1024·k.  Over a run of four points (k = 0 … 3) the accumulator starts from zero and gathers the four
  stretches, so the last point of the run holds the whole contraction, to which it adds the sampled bias entry
  1024·j + q on the way out.  Set beside the specification taken in four stretches, the two are the same sum.
-/
import proofs.«165912_j89799176225396_1_alg».proof.Proof.Gen.KernelIdeal.Value
import proofs.«165912_j89799176225396_1_alg».proof.Proof.ScratchStep
import proofs.«165912_j89799176225396_1_alg».proof.Proof.PayloadAt
import proofs.«165912_j89799176225396_1_alg».proof.Proof.Blocks
import proofs.«165912_j89799176225396_1_alg».proof.Proof.SpecBlocks

noncomputable section

namespace Cert.KernelIdeal.Acc

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The seven argument arrays on core `c`, under the specification's names. -/
abbrev X (c : Dev nD) : Cert.Spec.SX.Idx → EReal := m ((c : Thread nD τ).loc main_arg0)
abbrev EW (c : Dev nD) : Cert.Spec.SW.Idx → EReal := m ((c : Thread nD τ).loc main_arg1)
abbrev EB (c : Dev nD) : Cert.Spec.SB.Idx → EReal := m ((c : Thread nD τ).loc main_arg2)
abbrev MW (c : Dev nD) : Cert.Spec.SW.Idx → EReal := m ((c : Thread nD τ).loc main_arg3)
abbrev LW (c : Dev nD) : Cert.Spec.SW.Idx → EReal := m ((c : Thread nD τ).loc main_arg4)
abbrev MB (c : Dev nD) : Cert.Spec.SB.Idx → EReal := m ((c : Thread nD τ).loc main_arg5)
abbrev LB (c : Dev nD) : Cert.Spec.SB.Idx → EReal := m ((c : Thread nD τ).loc main_arg6)

/-- The stretch of the contraction that grid point `n` contributes to entry `y` of its accumulator block. -/
def part (c : Dev nD) (n : ℕ) (y : S256x1024.Idx) : EReal :=
  Cert.Spec.partAt (X m c) (MW m c) (LW m c) (EW m c)
    (256 * (n / 16) + (y 0).val) (1024 * (n / 4 % 4) + (y 1).val) (1024 * (n % 4))

/-- The accumulate step at point `t` adds that point's stretch to every entry. -/
theorem step_at (c : Dev nD) (t : Fin cfg0.N) (acc : Vec Ideal S256x1024 .f32) (y : S256x1024.Idx) :
    k0_pay2 (F := Ideal) (iblk m c 1 t) (iblk m c 2 t) (iblk m c 3 t) (iblk m c 0 t) acc y = acc y + part m c t.val y := by
  obtain ⟨p, q, rfl⟩ : ∃ (p : Fin 256) (q : Fin 1024), y = ix2 p q := ⟨y 0, y 1, eq_ix2 y⟩
  have hN : t.val < 64 := lt_of_lt_of_eq t.isLt N_0
  refine (PayloadAt.pay2_at (iblk m c 1 t) (iblk m c 2 t) (iblk m c 3 t) (iblk m c 0 t) acc p q).trans ?_
  refine congrArg (acc (ix2 p q) + ·) ?_
  show _ = ∑ l : Fin 1024, Cert.Spec.xN (X m c) (256 * (t.val / 16) + p.val) (1024 * (t.val % 4) + l.val)
      * Cert.Spec.wN (MW m c) (LW m c) (EW m c) (1024 * (t.val / 4 % 4) + q.val) (1024 * (t.val % 4) + l.val)
  refine Finset.sum_congr rfl fun l _ => ?_
  have hr : 256 * (t.val / 16) + p.val < 1024 := by omega
  have ho : 1024 * (t.val / 4 % 4) + q.val < 4096 := by omega
  have hk : 1024 * (t.val % 4) + l.val < 4096 := by omega
  unfold Cert.Spec.xN Cert.Spec.wN Cert.Spec.wAt
  rw [dif_pos ⟨hr, hk⟩, dif_pos ⟨ho, hk⟩,
    Blocks.iblk0_at m c t p l (ix2 ⟨_, hr⟩ ⟨_, hk⟩) rfl rfl,
    Blocks.iblk1_at m c t q l (ix2 ⟨_, ho⟩ ⟨_, hk⟩) rfl rfl,
    Blocks.iblk2_at m c t q l (ix2 ⟨_, ho⟩ ⟨_, hk⟩) rfl rfl,
    Blocks.iblk3_at m c t q l (ix2 ⟨_, ho⟩ ⟨_, hk⟩) rfl rfl]

/-- After the last point of a run the accumulator holds, entry by entry, zero plus the run's four stretches. -/
theorem acc_last_at (c : Dev nD) (t : Fin cfg0.N) (h1 : t.val % 4 = 3) (y : S256x1024.Idx) :
    (outsAt0 m c t.val t.isLt).2 y = 0 + ∑ s ∈ Finset.range 4, part m c (4 * (t.val / 4) + s) y := by
  have hN : t.val < 64 := lt_of_lt_of_eq t.isLt N_0
  have h64 : cfg0.N = 64 := N_0
  have hbound : 4 * (t.val / 4) + t.val % 4 < cfg0.N := by omega
  refine (congrFun (Value.soutsAt0_0_eq m c t) y).trans ?_
  refine (Pipeline.accAt_add_apply (N := cfg0.N)
    (fun n h => Value.scAt0_0 m c n h (VS0_0.read (Elt Ideal) VS0_0.junk)) (Value.scAt0_0 m c)
    (fun _ => (0 : EReal)) (part m c) (4 * (t.val / 4)) 3 ?_ ?_ (t.val % 4) (by omega) hbound y).trans ?_
  · intro h i
    show Value.scAt0_0 m c (4 * (t.val / 4)) h _ i = 0 + part m c (4 * (t.val / 4)) i
    rw [ScratchStep.sc_first m c (4 * (t.val / 4)) h (by omega)]
    refine (step_at m c ⟨4 * (t.val / 4), h⟩ (k0_pay1 (F := Ideal)) i).trans ?_
    obtain ⟨p, q, rfl⟩ : ∃ (p : Fin 256) (q : Fin 1024), i = ix2 p q := ⟨i 0, i 1, eq_ix2 i⟩
    rw [PayloadAt.pay1_at]
  · intro n h acc i hlo hhi
    rw [ScratchStep.sc_next m c n h (by omega) acc]
    exact step_at m c ⟨n, h⟩ acc i
  · rw [h1]

/-- What the last point of a run stores at entry (p, q) of the output block is the specification at the array entry
    the block's entry stands for: the four stretches are the whole contraction, and the bias row is the sampled bias. -/
theorem out_entry (c : Dev nD) (t : Fin cfg0.N) (h1 : t.val % 4 = 3) (p : Fin 256) (q : Fin 1024) (i : S1024x4096.Idx)
    (hi0 : (i 0).val = 256 * (t.val / 16) + p.val) (hi1 : (i 1).val = 1024 * (t.val / 4 % 4) + q.val) :
    k0_pay3 (F := Ideal) (iblk m c 4 t) (iblk m c 5 t) (iblk m c 6 t) ((outsAt0 m c t.val t.isLt).2) (ix2 p q)
      = Cert.Spec.out (X m c) (EW m c) (EB m c) (MW m c) (LW m c) (MB m c) (LB m c) i := by
  obtain ⟨b, o, rfl⟩ : ∃ (b : Fin 1024) (o : Fin 4096), i = ix2 b o := ⟨i 0, i 1, eq_ix2 i⟩
  have hb : b.val = 256 * (t.val / 16) + p.val := hi0
  have ho : o.val = 1024 * (t.val / 4 % 4) + q.val := hi1
  have hN : t.val < 64 := lt_of_lt_of_eq t.isLt N_0
  rw [Cert.Spec.out_ix2, Cert.Spec.outAt_blocks]
  refine (PayloadAt.pay3_at (iblk m c 4 t) (iblk m c 5 t) (iblk m c 6 t) ((outsAt0 m c t.val t.isLt).2) p q).trans ?_
  rw [acc_last_at m c t h1 (ix2 p q), zero_add]
  have hsum : ∑ s ∈ Finset.range 4, part m c (4 * (t.val / 4) + s) (ix2 p q)
      = ∑ s ∈ Finset.range 4, Cert.Spec.partAt (X m c) (MW m c) (LW m c) (EW m c) b.val o.val (1024 * s) := by
    refine Finset.sum_congr rfl fun s hs => ?_
    have hs4 : s < 4 := Finset.mem_range.mp hs
    show Cert.Spec.partAt _ _ _ _ (256 * ((4 * (t.val / 4) + s) / 16) + p.val) (1024 * ((4 * (t.val / 4) + s) / 4 % 4) + q.val)
        (1024 * ((4 * (t.val / 4) + s) % 4)) = _
    rw [show 256 * ((4 * (t.val / 4) + s) / 16) + p.val = b.val by omega,
      show 1024 * ((4 * (t.val / 4) + s) / 4 % 4) + q.val = o.val by omega,
      show 1024 * ((4 * (t.val / 4) + s) % 4) = 1024 * s by omega]
  rw [hsum]
  refine congrArg (_ + ·) ?_
  unfold Cert.Spec.bN Cert.Spec.bAt
  rw [dif_pos o.isLt, Blocks.iblk4_at m c t q (ix1 o) ho, Blocks.iblk5_at m c t q (ix1 o) ho, Blocks.iblk6_at m c t q (ix1 o) ho]

end Cert.KernelIdeal.Acc

end
-- ==== Proof.Final.lean ====
/-
  From blocks to the array.  The output block of grid point t = 16·i + 4·j + k is written back only at the last point
  of its run (k = 3), and holds rows 256·i … and columns 1024·j … of the result.  What is written back there is that
  block of the specification's array; the sixteen blocks written back tile the whole [1024, 4096] result, so after the
  run the result array is the specification's array.
-/
import proofs.«165912_j89799176225396_1_alg».proof.Proof.Accumulate

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's array of the argument arrays on core `c`. -/
abbrev result (c : Dev nD) : Buf (Elt Ideal) ((c : Thread nD τ).loc main_v0) :=
  Cert.Spec.out (Acc.X m c) (Acc.EW m c) (Acc.EB m c) (Acc.MW m c) (Acc.LW m c) (Acc.MB m c) (Acc.LB m c)

/-- What a point that writes back writes is its block of the specification's array. -/
theorem flushed_eq (c : Dev nD) (t : Fin cfg0.N) (hf : (cfg0.win 7).flush t = true) :
    (dats m 0 c).flushed 7 t = ((cfg0.win 7).blk t).view.read (Elt Ideal) (result m c) := by
  have h1 : t.val % 4 = 3 := (flush0_7 t).mp hf
  have hN : t.val < 64 := lt_of_lt_of_eq t.isLt N_0
  obtain ⟨e00, e01, e10, e11, e20, e21, e30, e31, e4, e5, e6, e70, e71⟩ := Blocks.idx_facts t
  rw [ScratchStep.flushed_last m c t h1]
  funext j
  show k0_pay3 (F := Ideal) (iblk m c 4 t) (iblk m c 5 t) (iblk m c 6 t) ((outsAt0 m c t.val t.isLt).2) j
    = result m c (((cfg0.win 7).blk t).view.emb j)
  obtain ⟨p, q, rfl⟩ : ∃ (p : Fin 256) (q : Fin 1024), j = ix2 p q := ⟨j 0, j 1, @eq_ix2 256 1024 j⟩
  exact Acc.out_entry m c t h1 p q _
    (by show win0_7.index t (0 : Fin 2) * 256 + 1 * p.val = _; omega)
    (by show win0_7.index t (1 : Fin 2) * 1024 + 1 * q.val = _; omega)

/-- An entry of the result array lies in point `t`'s output block iff each coordinate lies in the block's range. -/
theorem mem_blk (t : Fin cfg0.N) (i : S1024x4096.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v0).slice (win0_7.rect t)).set ↔ _
  rw [View.set_slice_whole, Rect.mem_set_unit]
  exact Iff.rfl

/-- Every entry of the result is in the block some writing point writes back: entry (r, o) in that of the last point of
    the run with i = r / 256 and j = o / 1024. -/
theorem cover (i : S1024x4096.Idx) :
    ∃ t : Fin cfg0.N, (cfg0.win 7).flush t = true ∧ i ∈ ((cfg0.win 7).blk t).view.set := by
  have hi0 : (i 0).val < 1024 := (i 0).isLt
  have hi1 : (i 1).val < 4096 := (i 1).isLt
  have hN : cfg0.N = 64 := N_0
  have hlt : 16 * ((i 0).val / 256) + 4 * ((i 1).val / 1024) + 3 < cfg0.N := by rw [hN]; omega
  obtain ⟨t, ht⟩ : ∃ t : Fin cfg0.N, t.val = 16 * ((i 0).val / 256) + 4 * ((i 1).val / 1024) + 3 := ⟨⟨_, hlt⟩, rfl⟩
  obtain ⟨e00, e01, e10, e11, e20, e21, e30, e31, e4, e5, e6, e70, e71⟩ := Blocks.idx_facts t
  refine ⟨t, (flush0_7 t).mpr (by omega), ?_⟩
  rw [mem_blk]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 1024 ≤ (i 1).val ∧ (i 1).val < win0_7.index t (1 : Fin 2) * 1024 + 1024
    omega

/-- After the run the result array is the specification's array. -/
theorem final (c : Dev nD) : (dats m 0 c).arrAt 7 cfg0.N = result m c :=
  (dats m 0 c).arrAt_eq_of_cover 7 (result m c) (flushed_eq m c) cover

/-- The kernel's run: it terminates with the result array at the specification's array and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Final

end
-- ==== Proof.lean ====
/-
  A dense layer with reparameterised weights and bias, out = x · Wᵀ + b with W = mu_w + exp(ls_w) · eps_w and
  b = mu_b + exp(ls_b) · eps_b, computed by a tiled kernel and by a plain reference.

  The kernel walks a 4 × 4 × 4 grid.  For each [256, 1024] block of the result it runs over the four stretches of 1024
  contracted features: it rebuilds the weight block from its mean, log-deviation and noise, multiplies the input block
  against it on the matrix unit, and adds the product into a running accumulator that the first stretch starts from
  zero; the last stretch adds the bias row and writes the block out.  The reference builds W and b whole and takes one
  contraction over all 4096 features.

  On the extended reals the rounding to bfloat16 before the matrix unit is the identity and both exponentials are the
  same function, so entry (r, o) of the kernel's result is ((((0 + S₀) + S₁) + S₂) + S₃) + b[o], with Sₖ the contraction
  over the k-th stretch, while the reference's is (∑ over all 4096 features) + b[o].  The two agree because a sum over
  4096 positions is the sum of its four consecutive stretches — associativity and commutativity of addition only, which
  hold at the infinities too, so the finiteness of the inputs is never used.

  The three frames are the generated ones (the reference's is its generated run with the result dropped), and the
  idealization rewrote nothing, so there is nothing to preserve.
-/
import proofs.«165912_j89799176225396_1_alg».proof.Defs
import proofs.«165912_j89799176225396_1_alg».proof.Proof.Gen.Kernel
import proofs.«165912_j89799176225396_1_alg».proof.Proof.Gen.Kernel.Frame
import proofs.«165912_j89799176225396_1_alg».proof.Proof.Gen.KernelIdeal
import proofs.«165912_j89799176225396_1_alg».proof.Proof.Gen.KernelIdeal.Frame
import proofs.«165912_j89799176225396_1_alg».proof.Proof.Gen.ReferenceIdeal
import proofs.«165912_j89799176225396_1_alg».proof.Proof.Gen.Pre_finite_inputs
import proofs.«165912_j89799176225396_1_alg».proof.Proof.Gen.KernelIdeal.Value
import proofs.«165912_j89799176225396_1_alg».proof.Proof.Gen.ReferenceIdeal.Run
import proofs.«165912_j89799176225396_1_alg».proof.Proof.Gen.ReferenceIdeal.Read
import proofs.«165912_j89799176225396_1_alg».proof.Proof.RefIsSpec
import proofs.«165912_j89799176225396_1_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the specification's array of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
